-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x40 : Shape := ⟨2, ![128, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x40 : S_.BroadcastsInDim S128x40 (![] : Fin 0 → Fin S128x40.rank)
  reducesTo_S128x40_S_d0_1 : S128x40.ReducesTo [0, 1] S_

variable [Facts]

def fn {F : FTy → Type} [FloatOps F] (main_arg0 : FVec F S100000x128 .f32) (main_arg1 : IVec S2x1600000 32) (main_arg2 : FVec F S1600000 .f32) (main_arg3 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x40 .f32 := Host.absf main_arg3
  let main_cst_2 : FVec F S_ .f32 := constant S_ .f32 0x7F800000#32
  let main_v10 : FVec F S128x40 .f32 := broadcastInDim S128x40 ![] bcast_S_S128x40 main_cst_2
  let main_v11 : IVec S128x40 1 := cmpf .olt main_v9 main_v10
  let main_c_3 : IVec S_ 1 := constantI S_ 1 1#1
  let main_v12 : IVec S_ 1 := (fun x v => Host.reduce IntOp.andi x v reducesTo_S128x40_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S1600000 : Shape := ⟨1, ![1600000]⟩
abbrev S128x40 : Shape := ⟨2, ![128, 40]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x40 : Shape := ⟨2, ![100000, 40]⟩
abbrev S10000x128 : Shape := ⟨2, ![10000, 128]⟩
abbrev S10000x40 : Shape := ⟨2, ![10000, 40]⟩
abbrev S1600000x40 : Shape := ⟨2, ![1600000, 40]⟩

abbrev nBuf : Space → Nat
  | .hbm => 92
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x40, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000x40, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x40, .f32⟩
  | .hbm, ⟨53, _⟩ => ⟨S1600000x1, .f32⟩
  | .hbm, ⟨54, _⟩ => ⟨S1600000x40, .f32⟩
  | .hbm, ⟨55, _⟩ => ⟨S1600000x40, .f32⟩
  | .hbm, ⟨56, _⟩ => ⟨S_, .f32⟩
  | .hbm, ⟨57, _⟩ => ⟨S100000x40, .f32⟩
  | .hbm, ⟨58, _⟩ => ⟨S1600000x1, .i32⟩
  | .hbm, ⟨59, _⟩ => ⟨S100000x40, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x40, .f32⟩
  | .hbm, ⟨69, _⟩ => ⟨S1600000x1, .f32⟩
  | .hbm, ⟨70, _⟩ => ⟨S1600000x40, .f32⟩
  | .hbm, ⟨71, _⟩ => ⟨S1600000x40, .f32⟩
  | .hbm, ⟨72, _⟩ => ⟨S_, .f32⟩
  | .hbm, ⟨73, _⟩ => ⟨S100000x40, .f32⟩
  | .hbm, ⟨74, _⟩ => ⟨S1600000x1, .i32⟩
  | .hbm, ⟨75, _⟩ => ⟨S100000x40, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x40, .f32⟩
  | .hbm, ⟨85, _⟩ => ⟨S1600000x1, .f32⟩
  | .hbm, ⟨86, _⟩ => ⟨S1600000x40, .f32⟩
  | .hbm, ⟨87, _⟩ => ⟨S1600000x40, .f32⟩
  | .hbm, ⟨88, _⟩ => ⟨S_, .f32⟩
  | .hbm, ⟨89, _⟩ => ⟨S100000x40, .f32⟩
  | .hbm, ⟨90, _⟩ => ⟨S1600000x1, .i32⟩
  | .hbm, ⟨91, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x40, .f32⟩
  | .local _ .vmem, ⟨3, _⟩ => ⟨S10000x40, .f32⟩
  | .local _ .vmem, ⟨4, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x40_S10000x40_1_0_0_1_n_n_wf : DotDims.WF S10000x128 S128x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x40.size a ≤ S128x40.size a
  hwx0_1 : ∀ i : grid0.Coords, EltTy.bits .f32 = 32 ∨ (Rect.block (s := S128x40) S128x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x40.size a ≤ S100000x40.size a
  hwx0_2 : ∀ i : grid0.Coords, EltTy.bits .f32 = 32 ∨ (Rect.block (s := S100000x40) S10000x40.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x40 : Shape := ⟨2, ![128, 40]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x40 : Shape := ⟨2, ![100000, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x40, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S1600000x1, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S1600000x1, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.FiniteInputs.lean ====
/-
  The precondition, read back: every entry of the three float inputs is a real number.

  `finite_inputs` is the conjunction of three `jnp.all (|a| < +inf)`, one per float argument (the features `x`, the
  edge weights, the weight matrix `W`). An `and`-reduction that came out `1` met `1` at every index; at the ideal
  values the absolute value is `max a (-a)`, the comparison is the extended reals' `<` and the literal `0x7F800000`
  is `⊤`, so `|a| < ⊤` rules out both infinities (`-⊥ = ⊤`) and leaves a real.
-/
import proofs.«168171_j40544491274370_1_alg».proof.Pre_finite_inputs
import proofs.«168171_j40544491274370_1_alg».proof.Proof.LibRealSum
import Idealize.ShloMosaic.Lib.ReduceAll
import Idealize.ShloMosaic.Lib.ValueIdx

noncomputable section

namespace Cert.FiniteInputs

open Idealize.ShloMosaic Cert.Pre_finite_inputs Cert.Lib.RealSum

variable [Cert.Pre_finite_inputs.Facts]

/-- The scalar shape has one index. -/
instance : Subsingleton S_.Idx := ⟨fun a b => funext fun d => d.elim0⟩

/-- The f32 word `0x7F800000` denotes `+∞`. -/
theorem ofBits_inf : Ideal.ofBits .f32 0x7F800000#32 = ⊤ := by simp [Ideal.ofBits, Ideal.ieee]

/-- An extended real whose absolute value is below `+∞` is a real. -/
theorem isReal_of_abs_lt (x : EReal)
    (h : Ideal.cmp .olt (max x (-x)) (Ideal.ofBits .f32 0x7F800000#32) = 1#1) : IsReal x := by
  rw [ofBits_inf] at h
  induction x using EReal.rec with
  | bot => exfalso; revert h; simp [Ideal.cmp]
  | top => exfalso; revert h; simp [Ideal.cmp]
  | coe r => exact ⟨r, rfl⟩

/-- Under the precondition every entry of `x`, of the edge weights and of `W` is a real. -/
theorem finite_of_pre (a0 : FVec Ideal S100000x128 .f32) (a1 : IVec S2x1600000 32) (a2 : FVec Ideal S1600000 .f32)
    (a3 : FVec Ideal S128x40 .f32) (h : Cert.Pre_finite_inputs.fn (F := Ideal) a0 a1 a2 a3 = fun _ => 1#1) :
    (∀ i, IsReal (a0 i)) ∧ (∀ i, IsReal (a2 i)) ∧ (∀ i, IsReal (a3 i)) := by
  have h0 := congrFun h ValueIdx.ix0
  dsimp only [Cert.Pre_finite_inputs.fn] at h0
  have h1 : IntOp.andi (IntOp.andi (Host.reduce IntOp.andi _ _ _ _ ValueIdx.ix0) (Host.reduce IntOp.andi _ _ _ _ ValueIdx.ix0))
      (Host.reduce IntOp.andi _ _ _ _ ValueIdx.ix0) = 1#1 := h0
  rw [IntOp.andi_eq_one, IntOp.andi_eq_one] at h1
  obtain ⟨⟨ha, hb⟩, hc⟩ := h1
  refine ⟨fun i => ?_, fun i => ?_, fun i => ?_⟩
  · exact isReal_of_abs_lt (a0 i) (Host.reduce_andi_all _ _ _ _ _ ha i)
  · exact isReal_of_abs_lt (a2 i) (Host.reduce_andi_all _ _ _ _ _ hb i)
  · exact isReal_of_abs_lt (a3 i) (Host.reduce_andi_all _ _ _ _ _ hc i)

end Cert.FiniteInputs

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.KernelMatmul.lean ====
/-
  What the tiled matrix product leaves in its output array.

  The region has ten grid points; point `t` stages rows `10000 t … 10000 t + 9999` of the features `x` (all 128 columns),
  the whole `128 × 40` matrix `W`, and writes back rows `10000 t …` of the `[100000, 40]` output. Its body stores one
  value, the `tpu.matmul` of the two loaded blocks into a zero accumulator (the conversions to bf16 on the way in are the
  identity at the ideal values), which at entry `(p, q)` of the block is `∑ k < 128, xblock (p, k) · W (k, q)`. Row `p` of
  block `t` is row `10000 t + p` of `x`, so every block the region writes back is the restriction of ONE whole-array
  function, `rowsTimes x W (n, j) = ∑ k < 128, x (n, k) · W (k, j)`; the ten row blocks cover the output, which therefore
  ends holding that function of the argument arrays.
-/
import proofs.«168171_j40544491274370_1_alg».proof.Proof.Gen.KernelIdeal.Frame
import proofs.«168171_j40544491274370_1_alg».proof.Proof.LibPlainDot
import Idealize.ShloMosaic.Lib.Pipeline.Value
import Idealize.ShloMosaic.PureOps.Ideal.Laws

set_option maxRecDepth 16384

noncomputable section

namespace Cert.KernelIdeal.Matmul

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The product of a `[100000, 128]` array with a `[128, 40]` matrix, entry by entry. -/
def rowsTimes (x : S100000x128.Idx → EReal) (w : S128x40.Idx → EReal) : S100000x40.Idx → EReal :=
  fun y => ∑ k : Fin 128, x (ix2 (⟨(y 0).val, idx2_lt0 y⟩ : Fin 100000) k) * w (ix2 k (⟨(y 1).val, idx2_lt1 y⟩ : Fin 40))

theorem rowsTimes_apply (x : S100000x128.Idx → EReal) (w : S128x40.Idx → EReal) (n : Fin 100000) (j : Fin 40) :
    rowsTimes x w (ix2 n j) = ∑ k : Fin 128, x (ix2 n k) * w (ix2 k j) := rfl

theorem hz : (![0, 0] : Fin 2 → Nat) = fun _ => 0 := funext fun a => by fin_cases a <;> rfl

/-- The body's stored value at entry `(p, q)` of the block: the sum over `k` of the loaded blocks' products. -/
theorem pay_apply (x0 : Vec Ideal S10000x128 .f32) (x1 : Vec Ideal S128x40 .f32) (p : Fin 10000) (q : Fin 40) :
    k0_pay1 x0 x1 (ix2 p q) = ∑ k : Fin 128, x0 (ix2 p k) * x1 (ix2 k q) := by
  unfold k0_pay1
  exact (Ideal.matmul_constant_zero_apply dot_S10000x128_S128x40_S10000x40_1_0_0_1_n_n none
      (truncf .bf16 x0 bitsLt_bf16_f32) (truncf .bf16 x1 bitsLt_bf16_f32) (ix2 p q)).trans
    (Cert.PlainDot.sum_contr dot_S10000x128_S128x40_S10000x40_1_0_0_1_n_n ⟨rfl, rfl, rfl, rfl, rfl, rfl⟩ x0 x1 p q)

/-- The printed index maps, decided over the ten grid points: the features' and the output's row block is the point's
    number, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N10 : cfg0.N = 10 := N_0

/-- Row `p` of point `t`'s block of rows is row `10000 t + p` of the array. -/
def rowOf (t : Fin cfg0.N) (p : Fin 10000) : Fin 100000 :=
  ⟨t.val * 10000 + p.val, by have h : t.val < 10 := lt_of_lt_of_eq t.isLt N10; have := p.isLt; omega⟩

/-- The features' block at point `t`, read at `(p, k)`. -/
theorem xblock_apply (c : Dev nD) (t : Fin cfg0.N) (p : Fin 10000) (k : Fin 128) :
    iblk m c 0 t (ix2 p k) = V m c main_arg0 (ix2 (rowOf t p) k) := by
  obtain ⟨e0, e1, e2, e3, e4, e5⟩ := idx_facts t
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The matrix's block at every point is the whole matrix. -/
theorem wblock_apply (c : Dev nD) (t : Fin cfg0.N) (k : Fin 128) (q : Fin 40) :
    iblk m c 1 t (ix2 k q) = V m c main_arg3 (ix2 k q) := by
  obtain ⟨e0, e1, e2, e3, e4, e5⟩ := idx_facts t
  show V m c main_arg3 (((cfg0.win 1).blk t).view.emb (ix2 k q)) = V m c main_arg3 (ix2 k q)
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 40 + 1 * q.val = q.val; rw [e3]; omega

/-- Entry `(p, q)` of the output's block at point `t` is entry `(10000 t + p, q)` of the output array. -/
theorem oblock_emb (t : Fin cfg0.N) (p : Fin 10000) (q : Fin 40) :
    ((cfg0.win 2).blk t).view.emb (ix2 p q) = ix2 (rowOf t p) q := by
  obtain ⟨e0, e1, e2, e3, e4, e5⟩ := idx_facts t
  refine funext fun a => Fin.ext ?_
  match a with
  | ⟨0, _⟩ => show win0_2.index t (0 : Fin 2) * 10000 + 1 * p.val = t.val * 10000 + p.val; rw [e4]; omega
  | ⟨1, _⟩ => show win0_2.index t (1 : Fin 2) * 40 + 1 * q.val = q.val; rw [e5]; omega

/-- WHAT POINT `t` WRITES BACK is block `t` of the product of the arrays as the region finds them. -/
theorem flushed_eq (c : Dev nD) (t : Fin cfg0.N) :
    (dats m 0 c).flushed 2 t
      = ((cfg0.win 2).blk t).view.read (Elt Ideal) (rowsTimes (V m c main_arg0) (V m c main_arg3)) := by
  show (cfg0.win 2).cut (grid0.coords t) ((dats m 0 c).after 2 t) = _
  rw [after0_2]
  unfold out0_2
  rw [View.canon_unit_zero hz]
  simp only [View.ld_unit_zero (S := S10000x128) hz, View.ld_unit_zero (S := S128x40) hz]
  funext j
  obtain ⟨p, q, rfl⟩ : ∃ (p : Fin 10000) (q : Fin 40), j = ix2 p q := ⟨j 0, j 1, eq_ix2 j⟩
  show k0_pay1 (iblk m c 0 t) (iblk m c 1 t) (ix2 p q)
    = rowsTimes (V m c main_arg0) (V m c main_arg3) (((cfg0.win 2).blk t).view.emb (ix2 p q))
  rw [oblock_emb, pay_apply, rowsTimes_apply]
  refine Finset.sum_congr rfl fun k _ => ?_
  rw [xblock_apply, wblock_apply]

/-- An index of the output array is in point `t`'s block iff each coordinate is in the block's range on its axis. -/
theorem mem_blk (t : Fin cfg0.N) (i : S100000x40.Idx) :
    i ∈ ((cfg0.win 2).blk t).view.set ↔ ∀ a : Fin 2, win0_2.index t a * S10000x40.size a ≤ (i a).val
      ∧ (i a).val < win0_2.index t a * S10000x40.size a + S10000x40.size a := by
  show i ∈ ((View.whole main_v29).slice (win0_2.rect t)).set ↔ _
  rw [View.set_slice_whole, Rect.mem_set_unit]
  exact Iff.rfl

/-- The ten row blocks cover the output: row `n` is in the block of point `n / 10000`. -/
theorem cover (i : S100000x40.Idx) :
    ∃ t : Fin cfg0.N, (cfg0.win 2).flush t = true ∧ i ∈ ((cfg0.win 2).blk t).view.set := by
  have hi0 : (i 0).val < 100000 := (i 0).isLt
  have hi1 : (i 1).val < 40 := (i 1).isLt
  obtain ⟨t, ht⟩ : ∃ t : Fin cfg0.N, t.val = (i 0).val / 10000 := ⟨⟨(i 0).val / 10000, lt_of_lt_of_eq (by omega) N10.symm⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 40 ≤ (i 1).val ∧ (i 1).val < win0_2.index t (1 : Fin 2) * 40 + 40
    rw [e5]; omega

/-- THE OUTPUT ARRAY after the region: the product of the features with the matrix, as launched. -/
theorem final (c : Dev nD) :
    (dats m 0 c).arrAt 2 cfg0.N
      = rowsTimes (m ((c : Thread nD τ).loc main_arg0)) (m ((c : Thread nD τ).loc main_arg3)) := by
  rw [← V_main_arg0 m c, ← V_main_arg3 m c]
  exact (dats m 0 c).arrAt_eq_of_cover 2 (rowsTimes (V m c main_arg0) (V m c main_arg3))
    (fun t _ => flushed_eq m c t) cover

end Cert.KernelIdeal.Matmul

end
-- ==== Proof.KernelValue.lean ====
/-
  The kernel program's result, as one term of its argument arrays.

  Around its one region the kernel program runs host operations. BEFORE the region, from the edge list and the edge
  weights alone: the edges' source and target nodes (rows 0 and 1 of the edge list), the weighted in-degree of every
  node, its inverse square root where positive, and the edge coefficients `norm e = dis (row e) · w e · dis (col e)`
  (`rowK`, `colK`, `degK`, `disK`, `normK`). The region then fills the `[100000, 40]` array with the product of the
  features with the matrix. AFTER the region come three propagation steps on that array, each a row gather by the
  source indices (a negative index first wrapped by `+ 100000`: `srcIdx`), a scale by the coefficients spread along the 40
  columns, and an accumulating row scatter by the target indices (`tgtIdx`) into zeros (`kstep`).

  This module reads the run back: what the host operations before the region leave in the three buffers the later ones
  read (`V_row`, `V_col`, `V_norm`), the result buffer after the last host operation as three `kstep`s of the region's
  output array (`tail_eq`), and the same terms spelt as the REFERENCE program spells them (`rowK_eq` … `normK_eq`: the two
  programs compute source, target and coefficient arrays by the same operations, so the terms agree by unfolding). All
  of this holds at every float instance and is stated so; `run` then states the kernel's run at the ideal values.
-/
import proofs.«168171_j40544491274370_1_alg».proof.Proof.Gen.KernelIdeal.Frame
import proofs.«168171_j40544491274370_1_alg».proof.Proof.Gen.ReferenceIdeal.Read
import proofs.«168171_j40544491274370_1_alg».proof.Proof.KernelMatmul
import Idealize.ShloMosaic.Lib.StableHlo.Run
import Idealize.ShloMosaic.PureOps.Ideal

set_option maxRecDepth 16384

noncomputable section

namespace Cert.KernelIdeal.KVal

open Cert.KernelIdeal Cert.KernelIdeal.Gen Idealize.ShloMosaic Idealize.ShloMosaic.TcCoe Idealize.SL.Sem
open Idealize.ShloMosaic.StableHlo

variable {F : FTy → Type} [FloatOps F]

/-! ## The host operations' terms -/

/-- The target node of every edge: row 1 of the edge list. -/
def colK (a1 : IVec S2x1600000 32) : IVec S1600000 32 :=
  shapeCast _ (extractStridedSlice S1x1600000 ![1, 0] a1 slices_S2x1600000_S1x1600000_1_0) shapeCasts_S1x1600000_S1600000
/-- The source node of every edge: row 0 of the edge list. -/
def rowK (a1 : IVec S2x1600000 32) : IVec S1600000 32 :=
  shapeCast _ (extractStridedSlice S1x1600000 ![0, 0] a1 slices_S2x1600000_S1x1600000_0_0) shapeCasts_S1x1600000_S1600000
/-- An index array as start indices, a negative index wrapped around once. -/
def srcIdx (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)
/-- An index array as scatter indices, as it stands. -/
def tgtIdx (r : IVec S1600000 32) : IVec S1600000x1 32 :=
  broadcastInDim S1600000x1 ![0] bcast_S1600000_S1600000x1_0 r
/-- The weighted in-degree of every node. -/
def degK (a1 : IVec S2x1600000 32) (a2 : FVec F S1600000 .f32) : FVec F S100000 .f32 :=
  Host.scatterAdd scatter_S100000_S1600000x1_S1600000_n_0_0_1
    (broadcastInDim S100000 ![] bcast_S_S100000 (constant S_ .f32 0x00000000#32)) (tgtIdx (colK a1)) a2
/-- Its inverse square root where positive, zero elsewhere. -/
def disK (a1 : IVec S2x1600000 32) (a2 : FVec F S1600000 .f32) : FVec F S100000 .f32 :=
  select (cmpf .ogt (degK a1 a2) (broadcastInDim S100000 ![] bcast_S_S100000 (constant S_ .f32 0x00000000#32)))
    (Host.rsqrt (maximumf (degK a1 a2) (broadcastInDim S100000 ![] bcast_S_S100000 (constant S_ .f32 0x0DA24260#32))))
    (broadcastInDim S100000 ![] bcast_S_S100000 (id (constant S_ .f32 0x00000000#32)))
/-- The edge coefficients. -/
def normK (a1 : IVec S2x1600000 32) (a2 : FVec F S1600000 .f32) : FVec F S1600000 .f32 :=
  mulf (mulf (Host.gather gather_S100000_S1600000x1_S1600000_n_0_n_n_0_1_1 (disK a1 a2) (srcIdx (rowK a1))) a2)
    (Host.gather gather_S100000_S1600000x1_S1600000_n_0_n_n_0_1_1 (disK a1 a2) (srcIdx (colK a1)))

/-- The zeros a step accumulates into. -/
def zeros40 : FVec F S100000x40 .f32 :=
  broadcastInDim S100000x40 ![] bcast_S_S100000x40 (constant S_ .f32 0x00000000#32)
/-- The coefficients spread along the 40 columns. -/
def spread40 (nrm : FVec F S1600000 .f32) : FVec F S1600000x40 .f32 :=
  broadcastInDim S1600000x40 ![0, 1] bcast_S1600000x1_S1600000x40_0_1
    (broadcastInDim S1600000x1 ![0] bcast_S1600000_S1600000x1_0 nrm)
/-- One propagation step on the `[100000, 40]` array. -/
def kstep (rowI colI : IVec S1600000x1 32) (nrm : FVec F S1600000 .f32) (h : FVec F S100000x40 .f32) :
    FVec F S100000x40 .f32 :=
  Host.scatterAdd scatter_S100000x40_S1600000x1_S1600000x40_1_0_0_1 zeros40 colI
    (mulf (Host.gather gather_S100000x40_S1600000x1_S1600000x40_1_0_n_n_0_1_140 h rowI) (spread40 nrm))

/-! ## The same terms as the reference program spells them -/

theorem rowK_eq (a1 : IVec S2x1600000 32) :
    srcIdx (rowK a1) = Cert.ReferenceIdeal.Read.val_main_v34 (F := F) a1 := rfl
theorem colK_eq (a1 : IVec S2x1600000 32) :
    tgtIdx (colK a1) = Cert.ReferenceIdeal.Read.val_main_v40 (F := F) a1 := rfl
theorem normK_eq (a1 : IVec S2x1600000 32) (a2 : FVec F S1600000 .f32) :
    normK a1 a2 = Cert.ReferenceIdeal.Read.val_main_v28 (F := F) a1 a2 := rfl

/-! ## What the host operations before the region leave -/

variable (m : (ℓ : Loc nD τ sig) → Buf (Elt F) ℓ) (ρ : Dev nD → PrngReg)

set_option maxHeartbeats 1000000 in
theorem V_row (c : Dev nD) :
    V0 m c (Proc.devRef .tc main_v1) = rowK (m ((c : Thread nD τ).loc main_arg1)) := by
  dsimp only [V0]
  simp only [hostOps0, hostOps0_1, hostOps0_2, List.flatten_cons, List.flatten_nil, List.append_nil, List.cons_append,
    List.nil_append]
  after_results_simp
  rfl

set_option maxHeartbeats 1000000 in
theorem V_col (c : Dev nD) :
    V0 m c (Proc.devRef .tc main_v3) = colK (m ((c : Thread nD τ).loc main_arg1)) := by
  dsimp only [V0]
  simp only [hostOps0, hostOps0_1, hostOps0_2, List.flatten_cons, List.flatten_nil, List.append_nil, List.cons_append,
    List.nil_append]
  after_results_simp
  rfl

set_option maxHeartbeats 2000000 in
theorem V_norm (c : Dev nD) :
    V0 m c (Proc.devRef .tc main_v28)
      = normK (m ((c : Thread nD τ).loc main_arg1)) (m ((c : Thread nD τ).loc main_arg2)) := by
  dsimp only [V0]
  simp only [hostOps0, hostOps0_1, hostOps0_2, List.flatten_cons, List.flatten_nil, List.append_nil, List.cons_append,
    List.nil_append]
  after_results_simp
  rfl

/-! ## The result buffer after the host operations that follow the region -/

set_option maxHeartbeats 4000000 in
/-- Three propagation steps of the region's output array, over the source, target and coefficient buffers as the
    region found them. -/
theorem tail_eq (c : Dev nD) :
    Pipeline.afterTail₀ cfgs (dats m) 0 (V0 m) [hostOps1] c main_v68
      = kstep (srcIdx (V0 m c (Proc.devRef .tc main_v1))) (tgtIdx (V0 m c (Proc.devRef .tc main_v3)))
          (V0 m c (Proc.devRef .tc main_v28))
        (kstep (srcIdx (V0 m c (Proc.devRef .tc main_v1))) (tgtIdx (V0 m c (Proc.devRef .tc main_v3)))
            (V0 m c (Proc.devRef .tc main_v28))
          (kstep (srcIdx (V0 m c (Proc.devRef .tc main_v1))) (tgtIdx (V0 m c (Proc.devRef .tc main_v3)))
              (V0 m c (Proc.devRef .tc main_v28))
            ((dats m 0 c).arrAt 2 cfg0.N))) := by
  unfold Pipeline.afterTail₀
  simp only [hostOps1, List.flatten_cons, List.flatten_nil, List.append_nil]
  after_results_simp
  rw [Pipeline.withArrays_of_ne _ c (V0 m c) _ main_v1 (by exact (by decide : ∀ w, Pipeline.arrRef spec0 w ≠ main_v1)),
    Pipeline.withArrays_of_ne _ c (V0 m c) _ main_v3 (by exact (by decide : ∀ w, Pipeline.arrRef spec0 w ≠ main_v3)),
    Pipeline.withArrays_of_ne _ c (V0 m c) _ main_v28 (by exact (by decide : ∀ w, Pipeline.arrRef spec0 w ≠ main_v28)),
    Pipeline.withArrays_arr spec0 launch0.win.arr_inj c _ _ 2]
  rfl

end Cert.KernelIdeal.KVal

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«168171_j40544491274370_1_alg».proof.Proof.LibRowOps
import proofs.«168171_j40544491274370_1_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.RefHops.lean ====
/-
  The reference, hop by hop, on real inputs.

  The reference propagates the `[N, 128]` features three times and multiplies by `W` at the end. Each hop is one row
  gather by the (sign-normalised) source indices, one scale by the edge coefficients spread along the columns, and one
  accumulating row scatter by the target indices into zeros: the printed step of `Propagate`, over the reference's own
  dimension records. All three hops read the same index arrays and the same coefficients (the program recomputes them
  per hop; the recomputed terms are the first hop's). So on a real array `r`, with real coefficients `ν`, the three hops
  are `stepReal` three times, and the final `dot_general` with a real `W = w` is the matrix product `contract (step³ r) w`.
-/
import proofs.«168171_j40544491274370_1_alg».proof.Proof.Gen.ReferenceIdeal.Read
import proofs.«168171_j40544491274370_1_alg».proof.Proof.LibPropagate
import proofs.«168171_j40544491274370_1_alg».proof.Proof.LibPlainDot

noncomputable section

namespace Cert.ReferenceIdeal.RefHops

open Cert.ReferenceIdeal Cert.ReferenceIdeal.Gen Cert.ReferenceIdeal.Read Idealize.ShloMosaic Idealize.ShloMosaic.ValueIdx
open Cert.Lib.RowOps Cert.Lib.Propagate Cert.Lib.RealSum

variable (x1 : (⟨S2x1600000, .i32⟩ : BufTy).Contents (Elt Ideal)) (x2 : (⟨S1600000, .f32⟩ : BufTy).Contents (Elt Ideal))

/-- There is at least one node. -/
theorem hN : 0 < 100000 := by decide

/-! ## The three hops read the same rows and the same targets -/

theorem row47 : val_main_v47 (F := Ideal) x1 = val_main_v34 (F := Ideal) x1 := rfl
theorem row60 : val_main_v60 (F := Ideal) x1 = val_main_v34 (F := Ideal) x1 := rfl
theorem col53 : val_main_v53 (F := Ideal) x1 = val_main_v40 (F := Ideal) x1 := rfl
theorem col66 : val_main_v66 (F := Ideal) x1 = val_main_v40 (F := Ideal) x1 := rfl

/-! ## Each hop accumulates into zeros -/

theorem zeros39 (i : S100000x128.Idx) : val_main_v39 (F := Ideal) i = 0 := by
  rw [val_main_v39_apply, val_main_cst_8_apply, Ideal.ofBits_def, Ideal.ofBits_zero_f32]
theorem zeros52 (i : S100000x128.Idx) : val_main_v52 (F := Ideal) i = 0 := by
  rw [val_main_v52_apply, val_main_cst_11_apply, Ideal.ofBits_def, Ideal.ofBits_zero_f32]
theorem zeros65 (i : S100000x128.Idx) : val_main_v65 (F := Ideal) i = 0 := by
  rw [val_main_v65_apply, val_main_cst_14_apply, Ideal.ofBits_def, Ideal.ofBits_zero_f32]

/-! ## Each hop scales row `e` by the coefficient of edge `e`, in every column -/

variable (ν : Fin 1600000 → ℝ) (hν : ∀ e : Fin 1600000, val_main_v28 (F := Ideal) x1 x2 (ix1 e) = (ν e : EReal))
include hν

theorem coef37 (e : Fin 1600000) (f : Fin 128) : val_main_v37 (F := Ideal) x1 x2 (ix2 e f) = (ν e : EReal) := by
  rw [val_main_v37_apply, val_main_v36_apply]
  have hi : idx_main_v36 (idx_main_v37 (ix2 e f)) = ix1 e := funext fun a => match a with | ⟨0, _⟩ => rfl
  rw [hi]
  exact hν e
theorem coef50 (e : Fin 1600000) (f : Fin 128) : val_main_v50 (F := Ideal) x1 x2 (ix2 e f) = (ν e : EReal) := by
  rw [val_main_v50_apply, val_main_v49_apply]
  have hi : idx_main_v49 (idx_main_v50 (ix2 e f)) = ix1 e := funext fun a => match a with | ⟨0, _⟩ => rfl
  rw [hi]
  exact hν e
theorem coef63 (e : Fin 1600000) (f : Fin 128) : val_main_v63 (F := Ideal) x1 x2 (ix2 e f) = (ν e : EReal) := by
  rw [val_main_v63_apply, val_main_v62_apply]
  have hi : idx_main_v62 (idx_main_v63 (ix2 e f)) = ix1 e := funext fun a => match a with | ⟨0, _⟩ => rfl
  rw [hi]
  exact hν e

/-! ## The hops on a real array -/

/-- One propagation step of the reference's index arrays and coefficients, on a real `[N, F]` array of any width. -/
abbrev step {F : Nat} (r : (⟨2, ![100000, F]⟩ : Shape).Idx → ℝ) : (⟨2, ![100000, F]⟩ : Shape).Idx → ℝ :=
  stepReal hN (val_main_v34 (F := Ideal) x1) (val_main_v40 (F := Ideal) x1) ν r

theorem hop1 (r : S100000x128.Idx → ℝ) :
    val_main_v41 (F := Ideal) (fun x => (r x : EReal)) x1 x2 = fun x => ((step x1 ν r x : ℝ) : EReal) := by
  unfold val_main_v41 val_main_v38 val_main_v35
  exact host_hop_real hN _ _ _ _ rfl rfl _ _ _ _ zeros39 ν (coef37 x1 x2 ν hν) r

theorem hop2 (r : S100000x128.Idx → ℝ) :
    val_main_v54 (F := Ideal) (fun x => (r x : EReal)) x1 x2 = fun x => ((step x1 ν (step x1 ν r) x : ℝ) : EReal) := by
  unfold val_main_v54 val_main_v51 val_main_v48
  rw [hop1 x1 x2 ν hν r, row47, col53]
  exact host_hop_real hN _ _ _ _ rfl rfl _ _ _ _ zeros52 ν (coef50 x1 x2 ν hν) _

theorem hop3 (r : S100000x128.Idx → ℝ) :
    val_main_v67 (F := Ideal) (fun x => (r x : EReal)) x1 x2
      = fun x => ((step x1 ν (step x1 ν (step x1 ν r)) x : ℝ) : EReal) := by
  unfold val_main_v67 val_main_v64 val_main_v61
  rw [hop2 x1 x2 ν hν r, row60, col66]
  exact host_hop_real hN _ _ _ _ rfl rfl _ _ _ _ zeros65 ν (coef63 x1 x2 ν hν) _

/-- THE REFERENCE'S RESULT on real features `r` and a real matrix `w`: the product with `w` of the three-fold propagated
    features. -/
theorem value (r : S100000x128.Idx → ℝ) (w : S128x40.Idx → ℝ) :
    val_main_v68 (F := Ideal) (fun x => (r x : EReal)) x1 x2 (fun x => (w x : EReal))
      = fun y => ((contract (step x1 ν (step x1 ν (step x1 ν r))) w y : ℝ) : EReal) := by
  unfold val_main_v68
  rw [hop3 x1 x2 ν hν r]
  funext y
  obtain ⟨n, j, rfl⟩ : ∃ (n : Fin 100000) (j : Fin 40), y = ix2 n j := ⟨y 0, y 1, eq_ix2 y⟩
  rw [contract_coe]
  exact Cert.PlainDot.dotGeneral_apply _ ⟨rfl, rfl, rfl, rfl, rfl, rfl⟩ none _ _ n j

end Cert.ReferenceIdeal.RefHops

end
-- ==== Proof.NormReal.lean ====
/-
  The edge coefficients of the propagation are real numbers.

  The reference computes, from the edge list and the (finite) edge weights, the symmetric normalisation
  `norm e = dis (row e) · w e · dis (col e)`, where `deg n = 0 + ∑ { e : col e = n } w e` and
  `dis n = where (deg n > 0, rsqrt (max (deg n, 1e-30)), 0)`. With real weights every degree is a real, a finite
  sum of reals; `max (deg n, 1e-30)` is a real that is at least the POSITIVE real the literal `1e-30` denotes, so its
  reciprocal square root is a real — neither the `⊤` the ideal `rsqrt` gives at `0` nor the `⊥` it gives below —;
  either branch of the `where` is then a real, whichever the comparison picks, a gathered entry of a real array is
  real wherever the index points, and the three-fold product is real.
-/
import proofs.«168171_j40544491274370_1_alg».proof.Proof.Gen.ReferenceIdeal.Read
import proofs.«168171_j40544491274370_1_alg».proof.Proof.LibRealSum
import Idealize.ShloMosaic.PureOps.Ideal.Laws

noncomputable section

namespace Cert.ReferenceIdeal.NormReal

open Cert.ReferenceIdeal Cert.ReferenceIdeal.Gen Cert.ReferenceIdeal.Read Idealize.ShloMosaic Cert.Lib.RealSum

/-- The f32 literal `1e-30` (the word `0x0DA24260`) denotes a positive real: `10633824 · 2⁻¹²³`. -/
theorem floor_pos : ∃ r : ℝ, 0 < r ∧ Ideal.ofBits .f32 0x0DA24260#32 = (r : EReal) := by
  have h : Ideal.ofBits .f32 0x0DA24260#32 = Ideal.ieee 8 23 (0x0DA24260#32 : BitVec 32) := rfl
  rw [h]
  unfold Ideal.ieee
  simp
  exact ⟨10633824 * (2 ^ 123)⁻¹, by positivity, (EReal.coe_mul _ _).symm⟩

variable (x1 : (⟨S2x1600000, .i32⟩ : BufTy).Contents (Elt Ideal)) (x2 : (⟨S1600000, .f32⟩ : BufTy).Contents (Elt Ideal))

/-- Every degree is a real: zero plus a finite sum of real weights. -/
theorem deg_real (hx2 : ∀ i, IsReal (x2 i)) (n : S100000.Idx) : IsReal (val_main_v6 (F := Ideal) x1 x2 n) := by
  unfold val_main_v6
  refine IsReal.host_scatterAdd _ _ _ _ (fun i => ?_) hx2 n
  rw [val_main_v4_apply, val_main_cst_apply]
  exact IsReal.ofBits_zero

/-- Every entry of the inverse square-root degree array is a real, on either branch of the `where`. -/
theorem dis_real (hx2 : ∀ i, IsReal (x2 i)) (n : S100000.Idx) : IsReal (val_main_v12 (F := Ideal) x1 x2 n) := by
  rw [val_main_v12_apply]
  refine IsReal.select _ ?_ ?_
  · rw [val_main_v11_apply, val_main_v10_apply]
    obtain ⟨r, hr, hc⟩ := floor_pos
    have h9 : val_main_v9 (F := Ideal) n = (r : EReal) :=
      (val_main_v9_apply n).trans ((val_main_cst_1_apply _).trans hc)
    exact IsReal.host_rsqrt_max (deg_real x1 x2 hx2 n) h9 hr
  · rw [val_main_call0_v1_apply, val_main_call0_v0_apply, val_main_cst_2_apply]
    exact IsReal.ofBits_zero

/-- Every edge coefficient is a real: a product of two gathered entries of that array and the edge's real weight. -/
theorem norm_real (hx2 : ∀ i, IsReal (x2 i)) (e : S1600000.Idx) : IsReal (val_main_v28 (F := Ideal) x1 x2 e) := by
  rw [val_main_v28_apply, val_main_v20_apply]
  refine IsReal.fmul (IsReal.fmul ?_ (hx2 e)) ?_
  · unfold val_main_v19
    exact IsReal.host_gather _ _ _ (dis_real x1 x2 hx2) e
  · unfold val_main_v27
    exact IsReal.host_gather _ _ _ (dis_real x1 x2 hx2) e

end Cert.ReferenceIdeal.NormReal

end
-- ==== Proof.Bridge.lean ====
/-
  The two programs compute one function.

  The kernel program multiplies first and propagates after, `A³ (x · W)`; the reference propagates first and multiplies
  after, `(A³ x) · W` — `A` one propagation step along the graph's edges with the symmetric-normalisation coefficients.
  Under the precondition the features, the edge weights and the matrix hold reals; then the coefficients are reals
  (`NormReal`), one step of the 40-wide product `r · w` is the product with `w` of one step of the 128-wide `r`
  (`Propagate.host_hop_contract`), and three such exchanges carry the kernel's `step³ (r · w)` to `(step³ r) · w`, which is
  what the reference's three hops and final `dot_general` compute (`RefHops.value`). Both programs read the same source,
  target and coefficient arrays (`KVal.rowK_eq`, `colK_eq`, `normK_eq`).

  `kernel_run` states the kernel program's run with its result at that term of the arguments; `value_eq` is the equality of
  the two programs' terms on real inputs.
-/
import proofs.«168171_j40544491274370_1_alg».proof.Proof.KernelValue
import proofs.«168171_j40544491274370_1_alg».proof.Proof.RefHops
import proofs.«168171_j40544491274370_1_alg».proof.Proof.NormReal
import proofs.«168171_j40544491274370_1_alg».proof.Proof.LibPropagate

set_option maxRecDepth 16384

noncomputable section

namespace Cert.KernelIdeal.Bridge

open Cert.KernelIdeal Cert.KernelIdeal.Gen Cert.KernelIdeal.KVal Cert.KernelIdeal.Matmul
open Idealize.ShloMosaic Idealize.ShloMosaic.TcCoe Idealize.SL.Sem Idealize.ShloMosaic.ValueIdx
open Cert.Lib.RowOps Cert.Lib.Propagate Cert.Lib.RealSum

/-- The kernel program's result as a term of its four arguments: three propagation steps, over the source, target and
    coefficient arrays as the reference spells them, of the product of the features with the matrix. -/
def kernelValue (a0 : FVec Ideal S100000x128 .f32) (a1 : IVec S2x1600000 32) (a2 : FVec Ideal S1600000 .f32)
    (a3 : FVec Ideal S128x40 .f32) : FVec Ideal S100000x40 .f32 :=
  kstep (F := Ideal) (Cert.ReferenceIdeal.Read.val_main_v34 (F := Ideal) a1) (Cert.ReferenceIdeal.Read.val_main_v40 (F := Ideal) a1)
      (Cert.ReferenceIdeal.Read.val_main_v28 (F := Ideal) a1 a2)
    (kstep (Cert.ReferenceIdeal.Read.val_main_v34 (F := Ideal) a1) (Cert.ReferenceIdeal.Read.val_main_v40 (F := Ideal) a1)
        (Cert.ReferenceIdeal.Read.val_main_v28 (F := Ideal) a1 a2)
      (kstep (Cert.ReferenceIdeal.Read.val_main_v34 (F := Ideal) a1) (Cert.ReferenceIdeal.Read.val_main_v40 (F := Ideal) a1)
          (Cert.ReferenceIdeal.Read.val_main_v28 (F := Ideal) a1 a2)
        (rowsTimes a0 a3)))

variable (m : (ℓ : Loc nD τ sig) → Buf (Elt Ideal) ℓ) (ρ : Dev nD → PrngReg)

/-- The result buffer after the whole program, at the term `kernelValue` of the launch contents. -/
theorem result_eq (c : Dev nD) :
    Pipeline.afterTail₀ cfgs (dats m) 0 (V0 m) [hostOps1] c main_v68
      = kernelValue (m ((c : Thread nD τ).loc main_arg0)) (m ((c : Thread nD τ).loc main_arg1))
          (m ((c : Thread nD τ).loc main_arg2)) (m ((c : Thread nD τ).loc main_arg3)) := by
  rw [tail_eq, V_row, V_col, V_norm, Matmul.final, rowK_eq (F := Ideal), colK_eq (F := Ideal), normK_eq]
  rfl

/-- THE KERNEL PROGRAM'S RUN at the ideal values: every weakly fair execution terminates with the result at
    `kernelValue` of the arguments and the arguments unchanged. -/
theorem kernel_run : θ_run defs (onTc (τ := τ) (main (F := Ideal))) ⟨m, fun _ => 0, ρ⟩ (fun r => ∀ c : Dev nD,
      r.2.mem ((c.tc : Thread nD τ).loc main_v68)
        = kernelValue (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v68 (Pipeline.mem_restRefs_of main_v68 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

/-! ## The two terms on real inputs -/

/-- The product of real arrays is the real product. -/
theorem rowsTimes_real (r : S100000x128.Idx → ℝ) (w : S128x40.Idx → ℝ) :
    rowsTimes (fun x => (r x : EReal)) (fun x => (w x : EReal)) = fun y => ((contract r w y : ℝ) : EReal) := by
  funext y
  obtain ⟨n, j, rfl⟩ : ∃ (n : Fin 100000) (j : Fin 40), y = ix2 n j := ⟨y 0, y 1, eq_ix2 y⟩
  rw [rowsTimes_apply, contract_coe]

variable (a1 : IVec S2x1600000 32) (a2 : FVec Ideal S1600000 .f32)
  (ν : Fin 1600000 → ℝ) (hν : ∀ e : Fin 1600000, Cert.ReferenceIdeal.Read.val_main_v28 (F := Ideal) a1 a2 (ix1 e) = (ν e : EReal))
include hν

/-- One step of the kernel's 40-wide product `r · w` is the product with `w` of one step of `r`. -/
theorem kstep_contract (r : S100000x128.Idx → ℝ) (w : S128x40.Idx → ℝ) :
    kstep (F := Ideal) (Cert.ReferenceIdeal.Read.val_main_v34 (F := Ideal) a1) (Cert.ReferenceIdeal.Read.val_main_v40 (F := Ideal) a1)
        (Cert.ReferenceIdeal.Read.val_main_v28 (F := Ideal) a1 a2) (fun y => ((contract r w y : ℝ) : EReal))
      = fun y => ((contract (Cert.ReferenceIdeal.RefHops.step a1 ν r) w y : ℝ) : EReal) := by
  unfold kstep
  exact host_hop_contract Cert.ReferenceIdeal.RefHops.hN _ _ _ _ rfl rfl _ _ _ _
    (fun i => by unfold zeros40; exact zeros_apply _ i) ν
    (fun e j => by unfold spread40; exact (rowBroadcast_apply (by decide) _ _ _ e j).trans (hν e)) r w

omit hν in
/-- THE BRIDGE: on real features, edge weights and matrix the kernel program's term is the reference's. -/
theorem value_eq (a0 : FVec Ideal S100000x128 .f32) (a3 : FVec Ideal S128x40 .f32)
    (h0 : ∀ i, IsReal (a0 i)) (h2 : ∀ i, IsReal (a2 i)) (h3 : ∀ i, IsReal (a3 i)) :
    kernelValue a0 a1 a2 a3 = Cert.ReferenceIdeal.Read.val_main_v68 (F := Ideal) a0 a1 a2 a3 := by
  obtain ⟨r, rfl⟩ : ∃ r : S100000x128.Idx → ℝ, a0 = fun x => (r x : EReal) :=
    ⟨fun x => (h0 x).choose, funext fun x => (h0 x).choose_spec⟩
  obtain ⟨w, rfl⟩ : ∃ w : S128x40.Idx → ℝ, a3 = fun x => (w x : EReal) :=
    ⟨fun x => (h3 x).choose, funext fun x => (h3 x).choose_spec⟩
  have hn := fun e : Fin 1600000 => Cert.ReferenceIdeal.NormReal.norm_real a1 a2 h2 (ix1 e)
  choose ν hν using hn
  rw [Cert.ReferenceIdeal.RefHops.value a1 a2 ν hν r w]
  unfold kernelValue
  rw [rowsTimes_real, kstep_contract a1 a2 ν hν, kstep_contract a1 a2 ν hν, kstep_contract a1 a2 ν hν]

end Cert.KernelIdeal.Bridge

end
-- ==== Proof.lean ====
/-
  `Cert.Claim` for the simplified graph convolution `A³ x · W`: the kernel program applies the linear layer first, by a
  tiled matrix product on the chip, and propagates the 40-wide result three times on the host; the reference propagates
  the 128-wide features three times and applies the linear layer last.

  * The three frames: both kernel programs' by their generated frame certificates, the reference's by its generated run.
  * `preserves`: the idealisation rewrote nothing, so there is nothing to state.
  * `algebraic`: at the ideal values the kernel program ends at `step³ (x · W)` (`Bridge.kernel_run`: the region's output
    array is the product `x · W`, and the host operations after it are three propagation steps) and the reference at
    `(step³ x) · W`. Under the precondition all entries of `x`, of the edge weights and of `W` are reals
    (`FiniteInputs.finite_of_pre`), hence so are the edge coefficients, and a propagation step — a weighted sum of rows,
    the same rows and weights for every column — commutes with the product by `W` (`Bridge.value_eq`).
-/
import proofs.«168171_j40544491274370_1_alg».proof.Defs
import proofs.«168171_j40544491274370_1_alg».proof.Proof.Gen.Kernel
import proofs.«168171_j40544491274370_1_alg».proof.Proof.Gen.Kernel.Skeleton
import proofs.«168171_j40544491274370_1_alg».proof.Proof.Gen.Kernel.Launch
import proofs.«168171_j40544491274370_1_alg».proof.Proof.Gen.Kernel.Points
import proofs.«168171_j40544491274370_1_alg».proof.Proof.Gen.Kernel.Frame
import proofs.«168171_j40544491274370_1_alg».proof.Proof.Gen.KernelIdeal
import proofs.«168171_j40544491274370_1_alg».proof.Proof.Gen.KernelIdeal.Skeleton
import proofs.«168171_j40544491274370_1_alg».proof.Proof.Gen.KernelIdeal.Launch
import proofs.«168171_j40544491274370_1_alg».proof.Proof.Gen.KernelIdeal.Points
import proofs.«168171_j40544491274370_1_alg».proof.Proof.Gen.KernelIdeal.Frame
import proofs.«168171_j40544491274370_1_alg».proof.Proof.Gen.ReferenceIdeal
import proofs.«168171_j40544491274370_1_alg».proof.Proof.Gen.Pre_finite_inputs
import proofs.«168171_j40544491274370_1_alg».proof.Proof.Gen.ReferenceIdeal.Run
import proofs.«168171_j40544491274370_1_alg».proof.Proof.Gen.ReferenceIdeal.Read
import proofs.«168171_j40544491274370_1_alg».proof.Proof.FiniteInputs
import proofs.«168171_j40544491274370_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at one array: the kernel program's term of its arguments is the reference's on arguments that
    agree and hold reals. -/
theorem algebraic : Cert.algebraic_KernelIdeal_ReferenceIdeal := by
  intro m ρ m' ρ' hpre hagree
  refine ⟨fun c => Cert.KernelIdeal.Bridge.kernelValue (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Bridge.kernel_run m ρ, ?_⟩
  refine (θ_run Cert.ReferenceIdeal.defs _ _).mono (fun _ h c => ⟨?_, (h c).2⟩)
    (Cert.ReferenceIdeal.Value.run (F := Ideal) m' ρ')
  obtain ⟨h0, h2, h3⟩ := Cert.FiniteInputs.finite_of_pre _ _ _ _ (hpre c)
  rw [(h c).1, Cert.ReferenceIdeal.Read.val_main_v68_eq, (hagree c).1, (hagree c).2.1, (hagree c).2.2.1, (hagree c).2.2.2]
  exact (Cert.KernelIdeal.Bridge.value_eq _ _ _ _ h0 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
